-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S256 : Shape := ⟨1, ![256]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S256 : S_.BroadcastsInDim S256 (![] : Fin 0 → Fin S256.rank)
  reducesTo_S256_S_d0 : S256.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : IVec S16384x4096 32) (main_arg2 : FVec F S256 .f32) (main_arg3 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S256 : Shape := ⟨1, ![256]⟩
abbrev S16384 : Shape := ⟨1, ![16384]⟩
abbrev S_ : Shape := ⟨0, ![]⟩
abbrev S16384x4096x1 : Shape := ⟨3, ![16384, 4096, 1]⟩
abbrev S1x16384 : Shape := ⟨2, ![1, 16384]⟩
abbrev S8192x16384 : Shape := ⟨2, ![8192, 16384]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S16384x4096, .i32⟩
  | .hbm, ⟨2, _⟩ => ⟨S256, .f32⟩
  | .hbm, ⟨3, _⟩ => ⟨S16384, .f32⟩
  | .hbm, ⟨4, _⟩ => ⟨S256, .bf16⟩
  | .hbm, ⟨5, _⟩ => ⟨S_, .i32⟩
  | .hbm, ⟨6, _⟩ => ⟨S16384x4096, .i32⟩
  | .hbm, ⟨7, _⟩ => ⟨S16384x4096, .i1⟩
  | .hbm, ⟨8, _⟩ => ⟨S_, .i32⟩
  | .hbm, ⟨9, _⟩ => ⟨S16384x4096, .i32⟩
  | .hbm, ⟨10, _⟩ => ⟨S16384x4096, .i32⟩
  | .hbm, ⟨11, _⟩ => ⟨S16384x4096, .i32⟩
  | .hbm, ⟨12, _⟩ => ⟨S16384x4096x1, .i32⟩
  | .hbm, ⟨13, _⟩ => ⟨S16384x4096, .bf16⟩
  | .hbm, ⟨14, _⟩ => ⟨S8192x4096, .bf16⟩
  | .hbm, ⟨15, _⟩ => ⟨S1x16384, .f32⟩
  | .hbm, ⟨16, _⟩ => ⟨S8192x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S_S16384x4096 : S_.BroadcastsInDim S16384x4096 (![] : Fin 0 → Fin S16384x4096.rank)
  bcast_S16384x4096_S16384x4096x1_0_1 : S16384x4096.BroadcastsInDim S16384x4096x1 (![0, 1] : Fin 2 → Fin S16384x4096x1.rank)
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  gather_S256_S16384x4096x1_S16384x4096_n_0_n_n_0_2_1_wf : GatherDims.WF S256 S16384x4096x1 S16384x4096 [] [0] [] [0] [] 2 ![1]
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x16384.size a
  hwx0_3 : ∀ i : grid0.Coords, EltTy.bits .f32 = 32 ∨ (Rect.block (s := S8192x16384) S512x1024.size (cc0_transform_3 i) (hinb0_3 i)).WholeWords (EltTy.packing .f32)

variable [Facts₀]

def gather_S256_S16384x4096x1_S16384x4096_n_0_n_n_0_2_1 : GatherDims S256 S16384x4096x1 S16384x4096 where
  offsetDims := []
  collapsedSliceDims := [0]
  operandBatchingDims := []
  startIndicesBatchingDims := []
  startIndexMap := [0]
  indexVectorDim := 2
  sliceSizes := ![1]
  wf := gather_S256_S16384x4096x1_S16384x4096_n_0_n_n_0_2_1_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v8) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S256 : Shape := ⟨1, ![256]⟩
abbrev S16384 : Shape := ⟨1, ![16384]⟩
abbrev S_ : Shape := ⟨0, ![]⟩
abbrev S16384x4096x1 : Shape := ⟨3, ![16384, 4096, 1]⟩
abbrev S8192x16384 : Shape := ⟨2, ![8192, 16384]⟩
abbrev S1x16384 : Shape := ⟨2, ![1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .i32⟩
  | .hbm, ⟨2, _⟩ => ⟨S256, .f32⟩
  | .hbm, ⟨3, _⟩ => ⟨S16384, .f32⟩
  | .hbm, ⟨4, _⟩ => ⟨S_, .i32⟩
  | .hbm, ⟨5, _⟩ => ⟨S16384x4096, .i32⟩
  | .hbm, ⟨6, _⟩ => ⟨S16384x4096, .i1⟩
  | .hbm, ⟨7, _⟩ => ⟨S_, .i32⟩
  | .hbm, ⟨8, _⟩ => ⟨S16384x4096, .i32⟩
  | .hbm, ⟨9, _⟩ => ⟨S16384x4096, .i32⟩
  | .hbm, ⟨10, _⟩ => ⟨S16384x4096, .i32⟩
  | .hbm, ⟨11, _⟩ => ⟨S16384x4096x1, .i32⟩
  | .hbm, ⟨12, _⟩ => ⟨S16384x4096, .f32⟩
  | .hbm, ⟨13, _⟩ => ⟨S8192x16384, .f32⟩
  | .hbm, ⟨14, _⟩ => ⟨S1x16384, .f32⟩
  | .hbm, ⟨15, _⟩ => ⟨S8192x16384, .f32⟩
  | .hbm, ⟨16, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384x4096_S16384x4096x1_0_1 : S16384x4096.BroadcastsInDim S16384x4096x1 (![0, 1] : Fin 2 → Fin S16384x4096x1.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  gather_S256_S16384x4096x1_S16384x4096_n_0_n_n_0_2_1_wf : GatherDims.WF S256 S16384x4096x1 S16384x4096 [] [0] [] [0] [] 2 ![1]
  dot_S8192x4096_S16384x4096_S8192x16384_1_1_0_0_n_n_wf : DotDims.WF S8192x4096 S16384x4096 S8192x16384 [1] [1] [0] [0] [] []

variable [Facts₀]

def gather_S256_S16384x4096x1_S16384x4096_n_0_n_n_0_2_1 : GatherDims S256 S16384x4096x1 S16384x4096 where
  offsetDims := []
  collapsedSliceDims := [0]
  operandBatchingDims := []
  startIndicesBatchingDims := []
  startIndexMap := [0]
  indexVectorDim := 2
  sliceSizes := ![1]
  wf := gather_S256_S16384x4096x1_S16384x4096_n_0_n_n_0_2_1_wf
def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.Payload.lean ====
/-
  What one grid point stores, read at an index. The kernel body loads a 512 × 4096 block x0 of the input, a 1024 × 4096
  block x1 of the gathered weights and a 1 × 1024 block x2 of the bias row, multiplies x0 by the transpose of x1 on the
  matrix unit into a zero accumulator, adds the bias row to every row of the product and stores the 512 × 1024 result.
  At the ideal values the entry (p, q) of what it stores is  Σ_k x0[p, k] · x1[q, k] + x2[0, q].
-/
import proofs.«102921_j51264729645538_2_alg».proof.Proof.Gen.KernelIdeal.Skeleton
import proofs.«102921_j51264729645538_2_alg».proof.Proof.LibMatmulT
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The bias row added to every row of the product: entry (p, q) of the broadcast is entry (0, q) of the row. -/
theorem bias_row_apply (x2 : FVec Ideal S1x1024 .f32) (h : S1x1024.Broadcasts S512x1024) (p : Fin 512) (q : Fin 1024) :
    broadcastTo S512x1024 x2 h (ix2 p q) = x2 (ix2 (0 : Fin 1) q) :=
  broadcastTo_apply x2 h (ix2 p q) (ix2 (0 : Fin 1) q) (fun a => by
    match a with
    | ⟨0, _⟩ => rfl
    | ⟨1, _⟩ => rfl)

/-- Entry (p, q) of what a grid point stores: the inner product of row p of the input block with row q of the weight
    block, plus entry q of the bias block. -/
theorem stored_apply (x0 : FVec Ideal S512x4096 .bf16) (x1 : FVec Ideal S1024x4096 .bf16) (x2 : FVec Ideal S1x1024 .f32)
    (p : Fin 512) (q : Fin 1024) :
    k0_pay1 (F := Ideal) x0 x1 x2 (ix2 p q) = (∑ k : Fin 4096, x0 (ix2 p k) * x1 (ix2 q k)) + x2 (ix2 (0 : Fin 1) q) := by
  unfold k0_pay1
  rw [addf_apply, shapeCast_self, shapeCast_self, shapeCast_self, bias_row_apply]
  refine congrArg (· + x2 (ix2 (0 : Fin 1) q)) ?_
  exact MatmulT.matmul_zero_apply _ none x0 x1 p q

end Cert.KernelIdeal.Payload

end
-- ==== Proof.Affine.lean ====
/-
  The affine map  y[t, o] = Σ_k x[t, k] · W[o, k] + b[o]  over the extended reals, for x of 8192 × 4096 entries, a weight
  matrix W of 16384 × 4096 entries and a bias b of 16384 entries: every output entry is the inner product of row t of
  x with row o of W, plus entry o of the bias. The sum is a finite sum in a commutative monoid, so no order or grouping of
  it matters, and no entry has to be finite.

  Two spellings of the bias occur: a vector of 16384 entries, and the same numbers laid out as a matrix with one row.
  They give the same map when the row's entry (0, o) is the vector's entry o.
-/
import Idealize.ShloMosaic.PureOps.Ideal
import Idealize.ShloMosaic.Lib.ValueIdx

noncomputable section

namespace Cert.Affine

open Idealize.ShloMosaic Idealize.ShloMosaic.ValueIdx

/-- Entry (t, o) of x · Wᵀ + b with the bias a vector. -/
def entry (x : (⟨2, ![8192, 4096]⟩ : Shape).Idx → EReal) (W : (⟨2, ![16384, 4096]⟩ : Shape).Idx → EReal)
    (b : (⟨1, ![16384]⟩ : Shape).Idx → EReal) (t : Fin 8192) (o : Fin 16384) : EReal :=
  (∑ k : Fin 4096, x (ix2 t k) * W (ix2 o k)) + b (ix1 o)

/-- x · Wᵀ + b as one function of the three arrays, the bias a vector. -/
def affine (x : (⟨2, ![8192, 4096]⟩ : Shape).Idx → EReal) (W : (⟨2, ![16384, 4096]⟩ : Shape).Idx → EReal)
    (b : (⟨1, ![16384]⟩ : Shape).Idx → EReal) : (⟨2, ![8192, 16384]⟩ : Shape).Idx → EReal :=
  fun i => entry x W b (i 0) (i 1)

/-- Entry (t, o) of x · Wᵀ + b with the bias a one-row matrix. -/
def entryRow (x : (⟨2, ![8192, 4096]⟩ : Shape).Idx → EReal) (W : (⟨2, ![16384, 4096]⟩ : Shape).Idx → EReal)
    (B : (⟨2, ![1, 16384]⟩ : Shape).Idx → EReal) (t : Fin 8192) (o : Fin 16384) : EReal :=
  (∑ k : Fin 4096, x (ix2 t k) * W (ix2 o k)) + B (ix2 (0 : Fin 1) o)

/-- x · Wᵀ + b as one function of the three arrays, the bias a one-row matrix. -/
def affineRow (x : (⟨2, ![8192, 4096]⟩ : Shape).Idx → EReal) (W : (⟨2, ![16384, 4096]⟩ : Shape).Idx → EReal)
    (B : (⟨2, ![1, 16384]⟩ : Shape).Idx → EReal) : (⟨2, ![8192, 16384]⟩ : Shape).Idx → EReal :=
  fun i => entryRow x W B (i 0) (i 1)

theorem affine_apply (x : (⟨2, ![8192, 4096]⟩ : Shape).Idx → EReal) (W : (⟨2, ![16384, 4096]⟩ : Shape).Idx → EReal)
    (b : (⟨1, ![16384]⟩ : Shape).Idx → EReal) (t : Fin 8192) (o : Fin 16384) :
    affine x W b (ix2 t o) = (∑ k : Fin 4096, x (ix2 t k) * W (ix2 o k)) + b (ix1 o) := rfl

theorem affineRow_apply (x : (⟨2, ![8192, 4096]⟩ : Shape).Idx → EReal) (W : (⟨2, ![16384, 4096]⟩ : Shape).Idx → EReal)
    (B : (⟨2, ![1, 16384]⟩ : Shape).Idx → EReal) (t : Fin 8192) (o : Fin 16384) :
    affineRow x W B (ix2 t o) = (∑ k : Fin 4096, x (ix2 t k) * W (ix2 o k)) + B (ix2 (0 : Fin 1) o) := rfl

/-- The two spellings agree when the one-row matrix holds the vector's entries. -/
theorem affineRow_eq_affine (x : (⟨2, ![8192, 4096]⟩ : Shape).Idx → EReal) (W : (⟨2, ![16384, 4096]⟩ : Shape).Idx → EReal)
    (B : (⟨2, ![1, 16384]⟩ : Shape).Idx → EReal) (b : (⟨1, ![16384]⟩ : Shape).Idx → EReal)
    (h : ∀ o : Fin 16384, B (ix2 (0 : Fin 1) o) = b (ix1 o)) : affineRow x W B = affine x W b := by
  funext i
  obtain ⟨t, o, rfl⟩ : ∃ (t : Fin 8192) (o : Fin 16384), i = ix2 t o := ⟨i 0, i 1, eq_ix2 i⟩
  rw [affineRow_apply, affine_apply, h]

end Cert.Affine

end
-- ==== Proof.Tile.lean ====
/-
  One tile of the affine map. Suppose a 512 × 4096 block x0 holds rows r·512 … r·512+511 of an 8192 × 4096 matrix X, a
  1024 × 4096 block x1 holds rows s·1024 … s·1024+1023 of a 16384 × 4096 matrix W, and a 1 × 1024 block x2 holds columns
  s·1024 … s·1024+1023 of a one-row matrix B. Then what a grid point stores from these blocks, at (p, q), is the affine map
  of X, W and B at (r·512 + p, s·1024 + q): the inner product runs over the whole shared axis in both, and the rows it
  reads are the same rows.
-/
import proofs.«102921_j51264729645538_2_alg».proof.Proof.Payload
import proofs.«102921_j51264729645538_2_alg».proof.Proof.Affine

noncomputable section

namespace Cert.KernelIdeal.Tile

open Cert.KernelIdeal Cert.KernelIdeal.Gen Idealize.ShloMosaic Idealize.ShloMosaic.ValueIdx Cert.Affine

theorem stored_eq_affineRow (X : (⟨2, ![8192, 4096]⟩ : Shape).Idx → EReal) (W : (⟨2, ![16384, 4096]⟩ : Shape).Idx → EReal)
    (B : (⟨2, ![1, 16384]⟩ : Shape).Idx → EReal)
    (x0 : FVec Ideal S512x4096 .bf16) (x1 : FVec Ideal S1024x4096 .bf16) (x2 : FVec Ideal S1x1024 .f32) (r s : ℕ)
    (h0 : ∀ (p : Fin 512) (k : Fin 4096) (t : Fin 8192), t.val = r * 512 + p.val → x0 (ix2 p k) = X (ix2 t k))
    (h1 : ∀ (q : Fin 1024) (k : Fin 4096) (o : Fin 16384), o.val = s * 1024 + q.val → x1 (ix2 q k) = W (ix2 o k))
    (h2 : ∀ (q : Fin 1024) (o : Fin 16384), o.val = s * 1024 + q.val → x2 (ix2 (0 : Fin 1) q) = B (ix2 (0 : Fin 1) o))
    (p : Fin 512) (q : Fin 1024) (t : Fin 8192) (o : Fin 16384) (ht : t.val = r * 512 + p.val) (ho : o.val = s * 1024 + q.val) :
    k0_pay1 (F := Ideal) x0 x1 x2 (ix2 p q) = affineRow X W B (ix2 t o) := by
  rw [Payload.stored_apply, affineRow_apply, h2 q o ho]
  refine congrArg (· + B (ix2 (0 : Fin 1) o)) (Finset.sum_congr rfl fun k _ => ?_)
  rw [h0 p k t ht, h1 q k o ho]

end Cert.KernelIdeal.Tile

end
-- ==== Proof.Entry.lean ====
/-
  The three arrays the region reads, as functions of the program's arguments. Before the region the host converts the
  input and the table to the narrower float format (the identity on ideal values), shifts every negative index up by
  256, gathers the weight matrix  W[o, k] = table[idx'[o, k]]  from the table, and lays the bias out as a matrix with
  one row. So the region finds the input itself, the gathered matrix, and the bias as a one-row matrix whose entry
  (0, o) is the bias at o.
-/
import proofs.«102921_j51264729645538_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The gathered weight matrix: the table read at each index, negative indices first shifted up by 256. -/
def weights (idx : S16384x4096.Idx → BitVec 32) (table : S256.Idx → EReal) : S16384x4096.Idx → EReal :=
  Host.gather gather_S256_S16384x4096x1_S16384x4096_n_0_n_n_0_2_1 table
    (broadcastInDim S16384x4096x1 ![0, 1] Facts₀.bcast_S16384x4096_S16384x4096x1_0_1
      (select (cmpi .slt idx (broadcastInDim S16384x4096 ![] Facts₀.bcast_S_S16384x4096 (constantI S_ 32 0#32)))
        (addi idx (broadcastInDim S16384x4096 ![] Facts₀.bcast_S_S16384x4096 (constantI S_ 32 256#32))) idx))

/-- The region finds the input array itself: the change of float format is the identity on ideal values. -/
theorem input_eq (c : Dev nD) :
    (V m c main_v8 : S8192x4096.Idx → EReal) = m ((c : Thread nD τ).loc main_arg0) := by
  dsimp only [Gen.V, Gen.hostOps0]
  after_results
  rfl

/-- The region finds the gathered weight matrix of the index array and the table. -/
theorem weights_eq (c : Dev nD) :
    (V m c main_v7 : S16384x4096.Idx → EReal)
      = weights (m ((c : Thread nD τ).loc main_arg1)) (m ((c : Thread nD τ).loc main_arg2)) := by
  dsimp only [Gen.V, Gen.hostOps0]
  after_results
  rfl

/-- The region finds the bias laid out as a matrix with one row. -/
theorem bias_eq (c : Dev nD) :
    (V m c main_v9 : S1x16384.Idx → EReal)
      = shapeCast S1x16384 (m ((c : Thread nD τ).loc main_arg3) : S16384.Idx → EReal) Facts₀.shapeCasts_S16384_S1x16384 := by
  dsimp only [Gen.V, Gen.hostOps0]
  after_results
  rfl

/-- Entry (0, o) of the one-row matrix is the bias at o. -/
theorem bias_row_apply (b : S16384.Idx → EReal) (o : Fin 16384) :
    shapeCast S1x16384 b Facts₀.shapeCasts_S16384_S1x16384 (ix2 (0 : Fin 1) o) = b (ix1 o) := by
  refine (shapeCast_addUnit_apply (![16384] : Fin 1 → Nat) b Facts₀.shapeCasts_S16384_S1x16384 (ix2 (0 : Fin 1) o)).trans ?_
  refine congrArg b (funext fun a => ?_)
  match a with
  | ⟨0, _⟩ => rfl

end Cert.KernelIdeal.Entry

end
-- ==== Proof.Blocks.lean ====
/-
  From the blocks to the array. The grid has 16 × 16 points; the point with coordinates (j, i) reads rows i·512 … of the
  input, rows j·1024 … of the gathered weight matrix and columns j·1024 … of the bias row, and writes the 512 × 1024 block
  at block position (i, j) of the 8192 × 16384 result. What it writes is that block of the affine map of the three arrays
  as the region finds them (one tile of the map), the 256 blocks cover the result, so after the run the result array is
  the affine map of the input, the gathered weight matrix and the bias.
-/
import proofs.«102921_j51264729645538_2_alg».proof.Proof.Gen.KernelIdeal.Value
import proofs.«102921_j51264729645538_2_alg».proof.Proof.Tile
import proofs.«102921_j51264729645538_2_alg».proof.Proof.Entry

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Affine

variable (m : (ℓ : Loc nD τ sig) → Buf (Elt Ideal) ℓ) (ρ : Dev nD → PrngReg)

theorem zero_offsets : (![0, 0] : Fin 2 → Nat) = fun _ => 0 := funext fun a => by fin_cases a <;> rfl

/-- The block positions, decided over the grid: the input block is on the result block's row and spans the whole shared
    axis; the weight block and the bias block are on the result block's column; the result's block positions stay
    below 16 on both axes. -/
theorem positions : ∀ t : Fin cfg0.N,
      win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 15 :=
  (by decide +kernel : ∀ t : Fin grid0.N, _)

/-- Every block position of the result is some point's. -/
theorem position_onto : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-- What point t writes back is block t of the affine map of the three arrays the region finds. -/
theorem flushed_eq (c : Dev nD) (t : Fin cfg0.N) :
    (dats m 0 c).flushed 3 t = ((cfg0.win 3).blk t).view.read (Elt Ideal)
      (affineRow (V m c main_v8) (V m c main_v7) (V m c main_v9)) := by
  rw [Value.flushed3]
  unfold out0_3
  rw [View.canon_unit_zero zero_offsets]
  simp only [View.ld_unit_zero (S := S512x4096) zero_offsets, View.ld_unit_zero (S := S1024x4096) zero_offsets,
    View.ld_unit_zero (S := S1x1024) zero_offsets]
  obtain ⟨e00, e01, e10, e11, e20, e21, b0, b1⟩ := positions t
  funext j
  obtain ⟨p, q, rfl⟩ : ∃ (p : Fin 512) (q : Fin 1024), j = ix2 p q := ⟨j 0, j 1, eq_ix2 j⟩
  have hp : p.val < 512 := p.isLt
  have hq : q.val < 1024 := q.isLt
  have hemb : ((cfg0.win 3).blk t).view.emb (ix2 p q)
      = ix2 (⟨win0_3.index t (0 : Fin 2) * 512 + p.val, by omega⟩ : Fin 8192)
          (⟨win0_3.index t (1 : Fin 2) * 1024 + q.val, by omega⟩ : Fin 16384) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  show k0_pay1 (iblk m c 0 t) (iblk m c 1 t) (iblk m c 2 t) (ix2 p q)
    = affineRow (V m c main_v8) (V m c main_v7) (V m c main_v9) (((cfg0.win 3).blk t).view.emb (ix2 p q))
  rw [hemb]
  refine Tile.stored_eq_affineRow (V m c main_v8) (V m c main_v7) (V m c main_v9) (iblk m c 0 t) (iblk m c 1 t) (iblk m c 2 t)
    (win0_3.index t (0 : Fin 2)) (win0_3.index t (1 : Fin 2)) ?_ ?_ ?_ p q _ _ rfl rfl
  · intro p' k T hT
    have hp' : p'.val < 512 := p'.isLt
    show V m c main_v8 (((cfg0.win 0).blk t).view.emb (ix2 p' k)) = V m c main_v8 (ix2 T k)
    refine congrArg (V m c main_v8) (funext fun a => Fin.ext ?_)
    match a with
    | ⟨0, _⟩ => show win0_0.index t (0 : Fin 2) * 512 + 1 * p'.val = T.val; omega
    | ⟨1, _⟩ => show win0_0.index t (1 : Fin 2) * 4096 + 1 * k.val = k.val; omega
  · intro q' k O hO
    show V m c main_v7 (((cfg0.win 1).blk t).view.emb (ix2 q' k)) = V m c main_v7 (ix2 O k)
    refine congrArg (V m c main_v7) (funext fun a => Fin.ext ?_)
    match a with
    | ⟨0, _⟩ => show win0_1.index t (0 : Fin 2) * 1024 + 1 * q'.val = O.val; omega
    | ⟨1, _⟩ => show win0_1.index t (1 : Fin 2) * 4096 + 1 * k.val = k.val; omega
  · intro q' O hO
    show V m c main_v9 (((cfg0.win 2).blk t).view.emb (ix2 (0 : Fin 1) q')) = V m c main_v9 (ix2 (0 : Fin 1) O)
    refine congrArg (V m c main_v9) (funext fun a => Fin.ext ?_)
    match a with
    | ⟨0, _⟩ => show win0_2.index t (0 : Fin 2) * 1 + 1 * 0 = 0; omega
    | ⟨1, _⟩ => show win0_2.index t (1 : Fin 2) * 1024 + 1 * q'.val = O.val; omega

/-- An index of the result is in point t's block iff each coordinate is in the block's range on its axis. -/
theorem mem_blk (t : Fin cfg0.N) (i : S8192x16384.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v10).slice (win0_3.rect t)).set ↔ _
  rw [View.set_slice_whole, Rect.mem_set_unit]
  exact Iff.rfl

/-- The blocks cover the result: index (a, b) lies in the block at position (a / 512, b / 1024). -/
theorem cover (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := position_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- After the run the result array is the affine map of the three arrays the region finds. -/
theorem final_row (c : Dev nD) :
    (dats m 0 c).arrAt 3 cfg0.N = affineRow (V m c main_v8) (V m c main_v7) (V m c main_v9) :=
  (dats m 0 c).arrAt_eq_of_cover 3 _ (fun t _ => flushed_eq m c t) cover

/-- After the run the result array is the affine map of the input, the gathered weight matrix and the bias. -/
theorem final (c : Dev nD) :
    (dats m 0 c).arrAt 3 cfg0.N = affine (m ((c : Thread nD τ).loc main_arg0))
      (Entry.weights (m ((c : Thread nD τ).loc main_arg1)) (m ((c : Thread nD τ).loc main_arg2)))
      (m ((c : Thread nD τ).loc main_arg3)) := by
  rw [final_row, Entry.input_eq, Entry.weights_eq, Entry.bias_eq]
  exact affineRow_eq_affine _ _ _ _ (Entry.bias_row_apply _)

/-- The kernel's run: every weakly fair execution terminates with the result array at the affine map of the arguments,
    the arguments unchanged. -/
theorem run : θ_run defs (onTc (τ := τ) (main (F := Ideal))) ⟨m, fun _ => 0, ρ⟩ fun r => ∀ c : Dev nD,
      r.2.mem ((c : Thread nD τ).loc main_v10) = affine (m ((c : Thread nD τ).loc main_arg0))
        (Entry.weights (m ((c : Thread nD τ).loc main_arg1)) (m ((c : Thread nD τ).loc main_arg2)))
        (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefValue.lean ====
/-
  The reference's result as the affine map. The reference gathers the weight matrix W[o, k] = table[idx'[o, k]] (idx' the
  indices with negative ones shifted up by 256), contracts the input against it along k, and adds the bias broadcast
  along the rows. Read at (t, o) that is  Σ_k x[t, k] · W[o, k] + b[o]: the affine map of the input, the gathered matrix
  and the bias. The gathered matrix is kept whole here: which table entry it reads is never opened.
-/
import proofs.«102921_j51264729645538_2_alg».proof.Proof.Gen.ReferenceIdeal.Read
import proofs.«102921_j51264729645538_2_alg».proof.Proof.Affine

noncomputable section

namespace Cert.ReferenceIdeal.RefValue

open Cert.ReferenceIdeal Cert.ReferenceIdeal.Read Idealize.ShloMosaic Idealize.ShloMosaic.ValueIdx Cert.Affine

/-- The left operand of the contraction at output (t, o) and position k is the input at (t, k). -/
theorem lidx_eq (t : Fin 8192) (o : Fin 16384) (k : Fin 4096) : lidx_main_v7 (ix2 t o) k = ix2 t k :=
  funext fun a => Fin.ext (by match a with | ⟨0, _⟩ => rfl | ⟨1, _⟩ => rfl)

/-- The right operand of the contraction at output (t, o) and position k is the weight matrix at (o, k). -/
theorem ridx_eq (t : Fin 8192) (o : Fin 16384) (k : Fin 4096) : ridx_main_v7 (ix2 t o) k = ix2 o k :=
  funext fun a => Fin.ext (by match a with | ⟨0, _⟩ => rfl | ⟨1, _⟩ => rfl)

/-- The bias broadcast to the output's shape, read at (t, o), is the bias at o. -/
theorem bidx_eq (t : Fin 8192) (o : Fin 16384) : idx_main_v8 (idx_main_v9 (ix2 t o)) = ix1 o :=
  funext fun a => Fin.ext (by match a with | ⟨0, _⟩ => rfl)

/-- The reference's result stage is the affine map of the input, the gathered weight matrix and the bias. -/
theorem result_eq (x0 : (⟨S8192x4096, .f32⟩ : BufTy).Contents (Elt Ideal)) (x1 : (⟨S16384x4096, .i32⟩ : BufTy).Contents (Elt Ideal))
    (x2 : (⟨S256, .f32⟩ : BufTy).Contents (Elt Ideal)) (x3 : (⟨S16384, .f32⟩ : BufTy).Contents (Elt Ideal)) :
    val_main_v10 (F := Ideal) x0 x1 x2 x3 = affine x0 (val_main_v6 (F := Ideal) x1 x2) x3 := by
  funext i
  obtain ⟨t, o, rfl⟩ : ∃ (t : Fin 8192) (o : Fin 16384), i = ix2 t o := ⟨i 0, i 1, eq_ix2 i⟩
  rw [val_main_v10_apply, val_main_v7_apply, val_main_v9_apply, val_main_v8_apply, affine_apply, bidx_eq]
  simp only [lidx_eq, ridx_eq]
  rfl

end Cert.ReferenceIdeal.RefValue

end
-- ==== Proof.lean ====
/-
  The kernel computes a linear layer whose weight matrix is stored as 8-bit codes into a 256-entry table:
      out[t, o] = Σ_k input[t, k] · table[idx'[o, k]] + bias[o],
  idx' the codes with negative ones shifted up by 256. The host gathers the weight matrix W[o, k] = table[idx'[o, k]] once;
  the kernel then tiles the 8192 × 16384 result into 16 × 16 blocks of 512 × 1024 and computes each block on the matrix unit
  from 512 rows of the input and 1024 rows of W over the whole shared axis, adding the bias row. The reference gathers
  the same matrix, contracts the whole input against it and adds the bias.

  At the ideal values both are the affine map  x · Wᵀ + b  of the input, the gathered matrix and the bias:
  the changes of float format are the identity, the matrix unit accumulates into zero, every block's inner products run over
  the whole shared axis (the same finite sum as the reference's, term by term), and the blocks cover the result. The
  gathered matrix is the same function of the codes and the table on both sides and is never opened. No entry has to be
  finite: the two sides are the same sums of the same products.

  The frames of the two kernel programs are the generated ones; the reference's frame is its generated run with the result
  dropped. The ideal pass rewrote nothing, so the idealization claim is trivial.
-/
import proofs.«102921_j51264729645538_2_alg».proof.Defs
import proofs.«102921_j51264729645538_2_alg».proof.Proof.Gen.Kernel
import proofs.«102921_j51264729645538_2_alg».proof.Proof.Gen.Kernel.Frame
import proofs.«102921_j51264729645538_2_alg».proof.Proof.Gen.KernelIdeal
import proofs.«102921_j51264729645538_2_alg».proof.Proof.Gen.KernelIdeal.Frame
import proofs.«102921_j51264729645538_2_alg».proof.Proof.Gen.KernelIdeal.Value
import proofs.«102921_j51264729645538_2_alg».proof.Proof.Gen.ReferenceIdeal
import proofs.«102921_j51264729645538_2_alg».proof.Proof.Gen.ReferenceIdeal.Run
import proofs.«102921_j51264729645538_2_alg».proof.Proof.Gen.ReferenceIdeal.Read
import proofs.«102921_j51264729645538_2_alg».proof.Proof.Gen.Pre_finite_inputs
import proofs.«102921_j51264729645538_2_alg».proof.Proof.Blocks
import proofs.«102921_j51264729645538_2_alg».proof.Proof.RefValue
import Idealize.ShloMosaic.Adequacy
import Idealize.ShloMosaic.Init

noncomputable section

namespace Cert.Proof

open Idealize.ShloMosaic Idealize.ShloMosaic.TcCoe Idealize.SL.Sem

/-- The gathered weight matrix is the same function of the codes and the table in both programs: the same gather of the
    table at the same shifted codes. -/
theorem weights_same (idx : Cert.ReferenceIdeal.S16384x4096.Idx → BitVec 32) (table : Cert.ReferenceIdeal.S256.Idx → EReal) :
    Cert.ReferenceIdeal.Read.val_main_v6 (F := Ideal) idx table = Cert.KernelIdeal.Entry.weights idx table := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the affine map of the input, the gathered weight matrix and the bias. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, weights_same,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
